-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S64 : Shape := ⟨1, ![64]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x512x256 .f32) (main_arg1 : FVec F S64 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S8x512x256 : Shape := ⟨3, ![8, 512, 256]⟩
abbrev S64 : Shape := ⟨1, ![64]⟩
abbrev S1x64 : Shape := ⟨2, ![1, 64]⟩
abbrev S8x256x64 : Shape := ⟨3, ![8, 256, 64]⟩
abbrev S1x128x128 : Shape := ⟨3, ![1, 128, 128]⟩
abbrev S1x128x64 : Shape := ⟨3, ![1, 128, 64]⟩
abbrev S128x64 : Shape := ⟨2, ![128, 64]⟩
abbrev S128x128 : Shape := ⟨2, ![128, 128]⟩
abbrev S1x1x64 : Shape := ⟨3, ![1, 1, 64]⟩
abbrev S128x128x1 : Shape := ⟨3, ![128, 128, 1]⟩
abbrev S128x128x64 : Shape := ⟨3, ![128, 128, 64]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x512x256, .f32⟩
  | .hbm, ⟨1, _⟩ => ⟨S64, .f32⟩
  | .hbm, ⟨2, _⟩ => ⟨S1x64, .f32⟩
  | .hbm, ⟨3, _⟩ => ⟨S8x256x64, .f32⟩
  | .local _ .vmem, ⟨0, _⟩ => ⟨S1x128x128, .f32⟩
  | .local _ .vmem, ⟨1, _⟩ => ⟨S1x128x128, .f32⟩
  | .local _ .vmem, ⟨2, _⟩ => ⟨S1x64, .f32⟩
  | .local _ .vmem, ⟨3, _⟩ => ⟨S1x128x64, .f32⟩
  | .local _ .vmem, ⟨4, _⟩ => ⟨S1x128x64, .f32⟩
  | .local _ .vmem, ⟨5, _⟩ => ⟨S128x64, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S64_S1x1x64 : S64.ShapeCasts S1x1x64
  shapeCasts_S128x128_S128x128x1 : S128x128.ShapeCasts S128x128x1
  broadcasts_S1x1x64_S128x128x64 : S1x1x64.Broadcasts S128x128x64
  broadcasts_S128x128x1_S128x128x64 : S128x128x1.Broadcasts S128x128x64
  reduces_S128x128x64_S128x64 : S128x128x64.Reduces [0] S128x64
  reduces_S128x64_S128 : S128x64.Reduces [1] S128
  shapeCasts_S128_S128x1 : S128.ShapeCasts S128x1
  broadcasts_S128x1_S128x64 : S128x1.Broadcasts S128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x512x256.size a
  hwx0_0 : ∀ i : grid0.Coords, EltTy.bits .f32 = 32 ∨ (Rect.block (s := S8x512x256) S1x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S8x256x64.size a
  hwx0_2 : ∀ i : grid0.Coords, EltTy.bits .f32 = 32 ∨ (Rect.block (s := S8x256x64) S1x128x64.size (cc0_transform_2 i) (hinb0_2 i)).WholeWords (EltTy.packing .f32)

variable [Facts₀]

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x256 : Shape := ⟨3, ![8, 512, 256]⟩
abbrev S64 : Shape := ⟨1, ![64]⟩
abbrev S1x1x1x64 : Shape := ⟨4, ![1, 1, 1, 64]⟩
abbrev S8x512x256x1 : Shape := ⟨4, ![8, 512, 256, 1]⟩
abbrev S8x512x256x64 : Shape := ⟨4, ![8, 512, 256, 64]⟩
abbrev S_ : Shape := ⟨0, ![]⟩
abbrev S8x256x64 : Shape := ⟨3, ![8, 256, 64]⟩
abbrev S8x256 : Shape := ⟨2, ![8, 256]⟩
abbrev S8x256x1 : Shape := ⟨3, ![8, 256, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S64, .f32⟩
  | .hbm, ⟨2, _⟩ => ⟨S1x1x1x64, .f32⟩
  | .hbm, ⟨3, _⟩ => ⟨S8x512x256x1, .f32⟩
  | .hbm, ⟨4, _⟩ => ⟨S8x512x256x64, .f32⟩
  | .hbm, ⟨5, _⟩ => ⟨S8x512x256x64, .f32⟩
  | .hbm, ⟨6, _⟩ => ⟨S8x512x256x64, .f32⟩
  | .hbm, ⟨7, _⟩ => ⟨S8x512x256x64, .f32⟩
  | .hbm, ⟨8, _⟩ => ⟨S_, .f32⟩
  | .hbm, ⟨9, _⟩ => ⟨S8x512x256x64, .f32⟩
  | .hbm, ⟨10, _⟩ => ⟨S8x512x256x64, .f32⟩
  | .hbm, ⟨11, _⟩ => ⟨S8x512x256x64, .f32⟩
  | .hbm, ⟨12, _⟩ => ⟨S_, .f32⟩
  | .hbm, ⟨13, _⟩ => ⟨S8x512x256x64, .f32⟩
  | .hbm, ⟨14, _⟩ => ⟨S8x512x256x64, .f32⟩
  | .hbm, ⟨15, _⟩ => ⟨S_, .f32⟩
  | .hbm, ⟨16, _⟩ => ⟨S8x256x64, .f32⟩
  | .hbm, ⟨17, _⟩ => ⟨S_, .f32⟩
  | .hbm, ⟨18, _⟩ => ⟨S8x256, .f32⟩
  | .hbm, ⟨19, _⟩ => ⟨S8x256x1, .f32⟩
  | .hbm, ⟨20, _⟩ => ⟨S8x256x64, .f32⟩
  | .hbm, ⟨21, _⟩ => ⟨S8x256x64, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S8x512x256_S8x512x256x1_0_1_2 : S8x512x256.BroadcastsInDim S8x512x256x1 (![0, 1, 2] : Fin 3 → Fin S8x512x256x1.rank)
  bcast_S1x1x1x64_S8x512x256x64_0_1_2_3 : S1x1x1x64.BroadcastsInDim S8x512x256x64 (![0, 1, 2, 3] : Fin 4 → Fin S8x512x256x64.rank)
  bcast_S8x512x256x1_S8x512x256x64_0_1_2_3 : S8x512x256x1.BroadcastsInDim S8x512x256x64 (![0, 1, 2, 3] : Fin 4 → Fin S8x512x256x64.rank)
  bcast_S_S8x512x256x64 : S_.BroadcastsInDim S8x512x256x64 (![] : Fin 0 → Fin S8x512x256x64.rank)
  reducesTo_S8x512x256x64_S8x256x64_d1 : S8x512x256x64.ReducesTo [1] S8x256x64
  h_S_ : 0 < S_.numel
  reducesTo_S8x256x64_S8x256_d2 : S8x256x64.ReducesTo [2] S8x256
  bcast_S8x256_S8x256x1_0_1 : S8x256.BroadcastsInDim S8x256x1 (![0, 1] : Fin 2 → Fin S8x256x1.rank)
  bcast_S8x256x1_S8x256x64_0_1_2 : S8x256x1.BroadcastsInDim S8x256x64 (![0, 1, 2] : Fin 3 → Fin S8x256x64.rank)

variable [Facts₀]

class Facts : Prop extends Facts₀ where

variable [Facts]
-- ==== Proof.Spec.lean ====
/-
  The soft histogram as one function of the two argument arrays.

  For a batch `b`, an instance `n`, a feature `f` and a bin `k`, instance `n` gives bin `k` the weight
  `u · exp (c · (s k − x (b, n, f))²)`, where `s` are the 64 sample points, `x` the data, `c` the value of the word of
  1/512 and `u` that of the word of 1. A bin's mass is the sum of its weights over the 512 instances; a feature's total is
  the sum of its 64 bins' masses; the histogram is mass / total.

  The 512 instances are also read as 4 tiles of 128 (`n = 128 · j + r`): the mass is the sum over the four tiles of the
  tile's partial mass, which is how a tiled accumulation reaches it; the 256 features as two halves of 128. Only the associativity and commutativity of `+` and
  `·` on the extended reals are used, so no finiteness is needed anywhere.
-/
import Idealize.ShloMosaic.PureOps.Ideal
import Idealize.ShloMosaic.PureOps.Ideal.Laws
import Idealize.ShloMosaic.Lib.ValueIdx

noncomputable section

open scoped BigOperators

namespace Cert.SoftHistogram

open Idealize.ShloMosaic Idealize.ShloMosaic.ValueIdx

/-- The data array, `[8, 512, 256]`: batch, instance, feature. -/
abbrev Data := (⟨3, ![8, 512, 256]⟩ : Shape).Idx → EReal
/-- The sample points, `[64]`. -/
abbrev Points := (⟨1, ![64]⟩ : Shape).Idx → EReal
/-- The histogram array, `[8, 256, 64]`: batch, feature, bin. -/
abbrev Hist := (⟨3, ![8, 256, 64]⟩ : Shape).Idx → EReal

/-- The exponent's scale: the value of the word of 1/512. -/
def scale : EReal := Ideal.ofBits .f32 0x3B000000#32
/-- The weight's outer factor: the value of the word of 1. -/
def unitFactor : EReal := Ideal.ofBits .f32 0x3F800000#32

/-- The weight a sample point `s` gets from a datum `x`: `u · exp (c · (s − x)²)`. -/
def kern (s x : EReal) : EReal := unitFactor * Ideal.exp (scale * ((s - x) * (s - x)))

/-- The same with the scale multiplied in first, `(c · (s − x)) · (s − x)`: multiplication of extended reals is associative. -/
theorem kern_assoc (s x : EReal) : unitFactor * Ideal.exp (scale * (s - x) * (s - x)) = kern s x := by
  unfold kern; rw [mul_assoc]

/-- The weight instance `n` of batch `b` gives bin `k` of feature `f`. -/
def weight (x : Data) (s : Points) (b : Fin 8) (n : Fin 512) (f : Fin 256) (k : Fin 64) : EReal :=
  kern (s (ix1 k)) (x (ix3 b n f))

/-- A bin's mass: its weights summed over the 512 instances. -/
def mass (x : Data) (s : Points) (b : Fin 8) (f : Fin 256) (k : Fin 64) : EReal := ∑ n : Fin 512, weight x s b n f k

/-- A feature's total: its 64 bins' masses summed. -/
def total (x : Data) (s : Points) (b : Fin 8) (f : Fin 256) : EReal := ∑ k : Fin 64, mass x s b f k

/-- The histogram: each bin's mass over its feature's total. -/
def hist (x : Data) (s : Points) : Hist := fun i => Ideal.div (mass x s (i 0) (i 1) (i 2)) (total x s (i 0) (i 1))

/-! ## The instances as four tiles of 128 -/

/-- Instance `128 · j + r`: row `r` of tile `j`. -/
def inst (j : Fin 4) (r : Fin 128) : Fin 512 := ⟨128 * j.val + r.val, by have := j.isLt; have := r.isLt; omega⟩

/-- Feature `128 · h + p`: column `p` of the feature half `h`. -/
def feat (h : Fin 2) (p : Fin 128) : Fin 256 := ⟨128 * h.val + p.val, by have := h.isLt; have := p.isLt; omega⟩

/-- Tile `j`'s part of a bin's mass. -/
def tileMass (x : Data) (s : Points) (b : Fin 8) (f : Fin 256) (k : Fin 64) (j : Fin 4) : EReal :=
  ∑ r : Fin 128, weight x s b (inst j r) f k

/-- A sum over the 512 instances is the sum over the tiles of the sums over a tile's rows. -/
theorem sum_inst {M : Type*} [AddCommMonoid M] (g : Fin 512 → M) : ∑ n : Fin 512, g n = ∑ j : Fin 4, ∑ r : Fin 128, g (inst j r) := by
  rw [← Fintype.sum_prod_type' (fun j r => g (inst j r))]
  refine (Fintype.sum_equiv (finProdFinEquiv (m := 4) (n := 128)) _ _ fun p => ?_).symm
  refine congrArg g (Fin.ext ?_)
  show 128 * p.1.val + p.2.val = p.2.val + 128 * p.1.val
  omega

/-- A bin's mass is the sum of its four tiles' parts. -/
theorem mass_eq_tiles (x : Data) (s : Points) (b : Fin 8) (f : Fin 256) (k : Fin 64) :
    mass x s b f k = ∑ j : Fin 4, tileMass x s b f k j := sum_inst _

/-- The mass gathered by the tiles up to and including tile `j`. -/
def massUpTo (x : Data) (s : Points) (b : Fin 8) (f : Fin 256) (k : Fin 64) (j : Fin 4) : EReal :=
  ∑ j' ∈ Finset.univ.filter (fun j' : Fin 4 => j'.val ≤ j.val), tileMass x s b f k j'

/-- After the first tile: that tile's part. -/
theorem massUpTo_zero (x : Data) (s : Points) (b : Fin 8) (f : Fin 256) (k : Fin 64) :
    massUpTo x s b f k 0 = tileMass x s b f k 0 := by
  unfold massUpTo
  rw [show (Finset.univ.filter fun j' : Fin 4 => j'.val ≤ (0 : Fin 4).val) = {0} by decide, Finset.sum_singleton]

/-- One more tile adds its part. -/
theorem massUpTo_succ (x : Data) (s : Points) (b : Fin 8) (f : Fin 256) (k : Fin 64) (j j' : Fin 4) (h : j'.val = j.val + 1) :
    massUpTo x s b f k j' = massUpTo x s b f k j + tileMass x s b f k j' := by
  unfold massUpTo
  have hset : (Finset.univ.filter fun i : Fin 4 => i.val ≤ j'.val) = insert j' (Finset.univ.filter fun i : Fin 4 => i.val ≤ j.val) := by
    ext i
    simp only [Finset.mem_filter, Finset.mem_univ, true_and, Finset.mem_insert]
    constructor
    · intro hi
      by_cases hij : i = j'
      · exact Or.inl hij
      · right
        have : i.val ≠ j'.val := fun hv => hij (Fin.ext hv)
        omega
    · rintro (rfl | hi)
      · exact le_refl _
      · omega
  have hnot : j' ∉ Finset.univ.filter fun i : Fin 4 => i.val ≤ j.val := by
    simp only [Finset.mem_filter, Finset.mem_univ, true_and]; omega
  rw [hset, Finset.sum_insert hnot, add_comm]

/-- After the last tile: the whole mass. -/
theorem massUpTo_last (x : Data) (s : Points) (b : Fin 8) (f : Fin 256) (k : Fin 64) :
    massUpTo x s b f k 3 = mass x s b f k := by
  unfold massUpTo
  rw [mass_eq_tiles, show (Finset.univ.filter fun j' : Fin 4 => j'.val ≤ (3 : Fin 4).val) = Finset.univ by decide]

end Cert.SoftHistogram

end
-- ==== Proof.RefHist.lean ====
/-
  The reference's result is the soft histogram of its two arguments.

  The reference lays the sample points and the data out over `[8, 512, 256, 64]` (batch, instance, feature, bin), takes
  `u · exp (c · ((s − x) · (s − x)))` there — the weight —, sums it over the instances from a zero into the masses
  `[8, 256, 64]`, sums those over the bins from a zero into the totals `[8, 256]`, lays the totals back along the bins and
  divides. Stage by stage, read at coordinates, these are `weight`, `mass`, `total` and `hist`; the two initial zeros
  drop by `0 + a = a`.
-/
import proofs.«130075_j72069551227094_1_alg».proof.Proof.Gen.ReferenceIdeal.Read
import proofs.«130075_j72069551227094_1_alg».proof.Proof.Spec
import Idealize.ShloMosaic.Lib.ValueIdx
import Idealize.ShloMosaic.PureOps.Ideal.Laws

noncomputable section

open scoped BigOperators

namespace Cert.SoftHistogram.Reference

open Idealize.ShloMosaic Idealize.ShloMosaic.ValueIdx
open Cert.ReferenceIdeal Cert.ReferenceIdeal.Read Cert.SoftHistogram

/-- The weights' stage at (batch, instance, feature, bin) is the weight. -/
theorem weights_apply (x : Data) (s : Points) (b : Fin 8) (n : Fin 512) (f : Fin 256) (k : Fin 64) :
    val_main_v10 (F := Ideal) x s (ix4 b n f k) = weight x s b n f k := by
  have e1 : idx_main_v0 (idx_main_v2 (ix4 b n f k)) = ix1 k :=
    funext fun a => Fin.ext (by match a with | ⟨0, _⟩ => rfl)
  have e0 : idx_main_v1 (idx_main_v3 (ix4 b n f k)) = ix3 b n f :=
    funext fun a => Fin.ext (by match a with | ⟨0, _⟩ => rfl | ⟨1, _⟩ => rfl | ⟨2, _⟩ => rfl)
  rw [val_main_v10_apply, val_main_v9_apply, val_main_cst_0_apply, val_main_v8_apply, val_main_v7_apply,
    val_main_v6_apply, val_main_cst_apply, val_main_v5_apply, val_main_v4_apply, val_main_v2_apply, val_main_v0_apply,
    val_main_v3_apply, val_main_v1_apply, e1, e0]
  simp only [Ideal.mulf_def, Ideal.subf_def, Ideal.hostUnary_exp_def, Ideal.ofBits_def]
  rfl

/-- The sum over the instances at (batch, feature, bin) is the mass. -/
theorem masses_apply (x : Data) (s : Points) (b : Fin 8) (f : Fin 256) (k : Fin 64) :
    val_main_v11 (F := Ideal) x s (ix3 b f k) = mass x s b f k := by
  rw [val_main_v11_apply, val_main_cst_1_apply, Ideal.ofBits_def, Ideal.ofBits_zero_f32, zero_add]
  unfold mass
  refine Finset.sum_congr rfl fun n _ => ?_
  have e : idx_main_v11 (ix3 b f k) n = ix4 b n f k :=
    funext fun a => Fin.ext (by match a with | ⟨0, _⟩ => rfl | ⟨1, _⟩ => rfl | ⟨2, _⟩ => rfl | ⟨3, _⟩ => rfl)
  rw [e, weights_apply]

/-- The sum of the masses over the bins at (batch, feature) is the total. -/
theorem totals_apply (x : Data) (s : Points) (b : Fin 8) (f : Fin 256) :
    val_main_v12 (F := Ideal) x s (ix2 b f) = total x s b f := by
  rw [val_main_v12_apply, val_main_cst_2_apply, Ideal.ofBits_def, Ideal.ofBits_zero_f32, zero_add]
  unfold total
  refine Finset.sum_congr rfl fun k _ => ?_
  have e : idx_main_v12 (ix2 b f) k = ix3 b f k :=
    funext fun a => Fin.ext (by match a with | ⟨0, _⟩ => rfl | ⟨1, _⟩ => rfl | ⟨2, _⟩ => rfl)
  rw [e, masses_apply]

/-- The reference's result is the histogram. -/
theorem result_eq_hist (x : Data) (s : Points) : val_main_v15 (F := Ideal) x s = hist x s := by
  funext i
  obtain ⟨b, f, k, rfl⟩ : ∃ (b : Fin 8) (f : Fin 256) (k : Fin 64), i = ix3 b f k := ⟨i 0, i 1, i 2, eq_ix3 i⟩
  have e : idx_main_v13 (idx_main_v14 (ix3 b f k)) = ix2 b f :=
    funext fun a => Fin.ext (by match a with | ⟨0, _⟩ => rfl | ⟨1, _⟩ => rfl)
  rw [val_main_v15_apply, val_main_v14_apply, val_main_v13_apply, e, masses_apply, totals_apply, Ideal.hostDivf_def]
  rfl

end Cert.SoftHistogram.Reference

end
-- ==== Proof.Blocks.lean ====
/-
  The grid's points and what the two input windows read there.

  The grid is 8 batches × 2 feature halves × 4 instance tiles, the tile moving fastest: point `t` is batch `t / 8`, half
  `(t / 4) mod 2`, tile `t mod 4`. There the data window's block is the `[1, 128, 128]` piece of the data at (that batch,
  that tile of the instances, that half of the features): its entry `(0, r, p)` is the datum of instance `128 · tile + r` and
  feature `128 · half + p`. The sample points reach the region as a `[1, 64]` row (the host reshapes the vector), and the
  points window's one block is the whole row: its entry `(0, k)` is sample point `k`. The output window's block at the point
  is the `[1, 128, 64]` piece of the result at (that batch, that half of the features, all bins).
-/
import proofs.«130075_j72069551227094_1_alg».proof.Proof.Gen.KernelIdeal.Value
import proofs.«130075_j72069551227094_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.SoftHistogram.Kernel

open Idealize.ShloMosaic Idealize.ShloMosaic.TcCoe Idealize.SL.Sem Idealize.ShloMosaic.ValueIdx
open Idealize.ShloMosaic.Pipeline (Dat)
open Cert.KernelIdeal Cert.KernelIdeal.Gen Cert.SoftHistogram

variable (m : (ℓ : Loc nD τ sig) → Buf (Elt Ideal) ℓ)

/-- The three windows' block indices at every point, decided over the grid. -/
theorem block_indices : ∀ t : Fin cfg0.N,
    win0_0.index t (0 : Fin 3) = t.val / 8 ∧ win0_0.index t (1 : Fin 3) = t.val % 4 ∧ win0_0.index t (2 : Fin 3) = t.val / 4 % 2
    ∧ win0_1.index t (0 : Fin 2) = 0 ∧ win0_1.index t (1 : Fin 2) = 0
    ∧ win0_2.index t (0 : Fin 3) = t.val / 8 ∧ win0_2.index t (1 : Fin 3) = t.val / 4 % 2 ∧ win0_2.index t (2 : Fin 3) = 0 :=
  (by decide +kernel : ∀ t : Fin grid0.N, _)

theorem point_lt (t : Fin cfg0.N) : t.val < 64 := lt_of_lt_of_eq t.isLt (show cfg0.N = 64 from N_0)

/-- A point's batch, -/
def batchOf (t : Fin cfg0.N) : Fin 8 := ⟨t.val / 8, by have := point_lt t; omega⟩
/-- its half of the features, -/
def halfOf (t : Fin cfg0.N) : Fin 2 := ⟨t.val / 4 % 2, by omega⟩
/-- and its tile of the instances. -/
def tileOf (t : Fin cfg0.N) : Fin 4 := ⟨t.val % 4, by omega⟩

/-- The data and the sample points as launched. -/
abbrev dataOf (c : Dev nD) : Data := m ((c : Thread nD τ).loc main_arg0)
abbrev pointsOf (c : Dev nD) : Points := m ((c : Thread nD τ).loc main_arg1)

/-- The data window's block at point `t`, entry `(0, r, p)`: instance `128 · tile + r`, feature `128 · half + p` of the batch. -/
theorem data_block (c : Dev nD) (t : Fin cfg0.N) (r p : Fin 128) :
    (iblk m c 0 t : Vec Ideal S1x128x128 .f32) (ix3 (0 : Fin 1) r p)
      = dataOf m c (ix3 (batchOf t) (inst (tileOf t) r) (feat (halfOf t) p)) := by
  obtain ⟨e0, e1, e2, -⟩ := block_indices t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val / 8; omega
  | ⟨1, _⟩ => show win0_0.index t (1 : Fin 3) * 128 + 1 * r.val = 128 * (t.val % 4) + r.val; omega
  | ⟨2, _⟩ => show win0_0.index t (2 : Fin 3) * 128 + 1 * p.val = 128 * (t.val / 4 % 2) + p.val; omega

/-- The row the region finds in the points window's array: the host's reshape of the sample points. -/
theorem points_row (c : Dev nD) :
    (V m c main_v0 : S1x64.Idx → EReal) = shapeCast S1x64 (m ((c : Thread nD τ).loc main_arg1)) shapeCasts_S64_S1x64 := by
  dsimp only [Gen.V, Gen.hostOps0]; after_results; rfl

/-- The points window's block at any point, entry `(0, k)`: sample point `k`. -/
theorem points_block (c : Dev nD) (t : Fin cfg0.N) (k : Fin 64) :
    (iblk m c 1 t : Vec Ideal S1x64 .f32) (ix2 (0 : Fin 1) k) = pointsOf m c (ix1 k) := by
  obtain ⟨-, -, -, e3, e4, -⟩ := block_indices t
  unfold iblk
  rw [View.read_apply]
  show V m c main_v0 _ = _
  have hidx : ((cfg0.win 1).blk t).view.emb (ix2 (0 : Fin 1) k) = ix2 (0 : Fin 1) k := funext fun a => Fin.ext (by
    match a with
    | ⟨0, _⟩ => show win0_1.index t (0 : Fin 2) * 1 + 1 * 0 = 0; omega
    | ⟨1, _⟩ => show win0_1.index t (1 : Fin 2) * 64 + 1 * k.val = k.val; omega)
  rw [hidx, points_row]
  exact shapeCast_a_1a_apply _ _ 0 k

end Cert.SoftHistogram.Kernel

end
-- ==== Proof.Pieces.lean ====
/-
  What each of the body's three control cases leaves behind, as values of what it found.

  At a tile that is first in its run of four (case A) the body resets the accumulator and then accumulates: the
  accumulator ends at the accumulation of the tile over the zero block. At a middle tile (case B) it only accumulates: the
  accumulator ends at the accumulation of the tile over what the tile before left. At the last tile (case C) it accumulates
  and then normalises: the accumulator ends as in case B, and the output block holds the normalisation of that final
  accumulator (both of the normalisation's reads see the accumulator the same store just left).
  Each is the read-back of the case's covering stores; the loads read whole buffers.
-/
import proofs.«130075_j72069551227094_1_alg».proof.Proof.Gen.KernelIdeal.Frame
import Idealize.ShloMosaic.Lib.Pipeline.Value
import Idealize.ShloMosaic.Lib.Tactic

noncomputable section

namespace Cert.SoftHistogram.Cases

open Idealize.ShloMosaic Idealize.ShloMosaic.TcCoe Idealize.SL.Sem
open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First tile of a run: the accumulator ends at the tile's accumulation over the zero block. -/
theorem acc_first (c : Dev nD) (i : grid0.Coords) (arg3 : Memref sig .tc .vmem S1x128x128 .f32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond0_0 i) (hc1 : ¬cond0_1 i)
    (x0 : Vec F S1x128x128 .f32) (x1 : Vec F S1x64 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S128x64) zeros2, View.readCov_unit_zero (S := S128x64) _ zeros2]
  simp only [View.readAt_eq_ld, harg3.read_unread, harg4.read_unread, View.ld_unit_zero (S := S1x128x128) zeros3,
    View.ld_unit_zero (S := S1x64) zeros2]

/-- A middle tile: the accumulator ends at the tile's accumulation over what the tile before left. -/
theorem acc_middle (c : Dev nD) (i : grid0.Coords) (arg3 : Memref sig .tc .vmem S1x128x128 .f32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : ¬cond0_1 i)
    (x0 : Vec F S1x128x128 .f32) (x1 : Vec F S1x64 .f32) (xs0 : Vec F S128x64 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S128x64) zeros2]
  simp only [View.readAt_eq_ld, harg3.read_unread, harg4.read_unread, harg6.read_unread,
    View.ld_unit_zero (S := S1x128x128) zeros3, View.ld_unit_zero (S := S1x64) zeros2, View.ld_unit_zero (S := S128x64) zeros2]

/-- The last tile: the accumulator ends as at a middle tile … -/
theorem acc_last (c : Dev nD) (i : grid0.Coords) (arg3 : Memref sig .tc .vmem S1x128x128 .f32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : cond0_1 i)
    (x0 : Vec F S1x128x128 .f32) (x1 : Vec F S1x64 .f32) (xs0 : Vec F S128x64 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S128x64) zeros2]
  simp only [View.readAt_eq_ld, harg3.read_unread, harg4.read_unread, harg6.read_unread,
    View.ld_unit_zero (S := S1x128x128) zeros3, View.ld_unit_zero (S := S1x64) zeros2, View.ld_unit_zero (S := S128x64) zeros2]

/-- … and the output block holds the normalisation of that final accumulator. -/
theorem out_last (c : Dev nD) (i : grid0.Coords) (arg3 : Memref sig .tc .vmem S1x128x128 .f32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : cond0_1 i)
    (x0 : Vec F S1x128x128 .f32) (x1 : Vec F S1x64 .f32) (xs0 : Vec F S128x64 .f32) :
    out0_C_2 c i arg3 harg3 arg4 harg4 arg5 harg5 arg6 harg6 hc0 hc1 x0 x1 xs0 = k0_pay3 (k0_pay2 x0 x1 xs0) (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1x128x64) zeros3, View.readCov_unit_zero (S := S128x64) _ zeros2]
  simp only [View.readAt_eq_ld, harg3.read_unread, harg4.read_unread, harg6.read_unread,
    View.ld_unit_zero (S := S1x128x128) zeros3, View.ld_unit_zero (S := S1x64) zeros2, View.ld_unit_zero (S := S128x64) zeros2]

end Cert.SoftHistogram.Cases

end
-- ==== Proof.LibCubeForms.lean ====
/-
  General facts about a rank-three array read at an index given by coordinates.

  • An `[a, b]` array viewed as `[a, b, 1]` reads, at `(p, q, 0)`, the array at `(p, q)`: a trailing unit axis does not move
    an entry's row-major position.
  • A `[1, 1, c]` row laid over `[a, b, c]` reads, at `(p, q, k)`, the row at `(0, 0, k)`, whatever `p` and `q`.
  • An `[a, b, 1]` array laid over `[a, b, c]` reads, at `(p, q, k)`, the array at `(p, q, 0)`, whatever `k`.
  • Over the extended reals the sum over the FIRST axis of an `[n0, n1, n2]` array at `(q, k)` is the sum over `r` of the
    entries `(r, q, k)`.
-/
import Idealize.ShloMosaic.Lib.Pipeline.Value
import Idealize.ShloMosaic.Lib.ValueIdx
import Idealize.ShloMosaic.PureOps.Ideal.Laws
import Idealize.ShloMosaic.PureOps.Reduce

open scoped BigOperators

namespace Cert.Lib.CubeForms

open Idealize.ShloMosaic Idealize.ShloMosaic.ValueIdx

variable {α : Type}

/-- An `[a, b]` array cast to `[a, b, 1]` reads, at `(p, q, u)`, the array at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[1, 1, c]` row broadcast to `[a, b, c]` reads, at `(p, q, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum over the FIRST axis of an `[n0, n1, n2]` array at `(q, k)` is the sum over `r` of the entries `(r, q, k)`. -/
theorem sum_axis0_rank3 {n0 n1 n2 : ℕ} (v : FVec Ideal (⟨3, ![n0, n1, n2]⟩ : Shape) .f32) (acc : BitVec 32)
    (h : (⟨3, ![n0, n1, n2]⟩ : Shape).Reduces [0] ⟨2, ![n1, n2]⟩) (hφ : FKind.Formats .f32)
    (hacc : acc = FKind.add.neutral .f32 hφ) (q : Fin n1) (k : Fin n2) :
    multiReduction .add [0] ⟨2, ![n1, n2]⟩ v acc h hφ hacc (ix2 q k) = ∑ r : Fin n0, v (ix3 r q k) :=
  (Ideal.multiReduction_add_single v acc h hφ hacc (ix2 q k)).trans
    (Finset.sum_congr rfl fun r _ => congrArg v (funext fun c => Fin.ext (by fin_cases c <;> rfl)))

end Cert.Lib.CubeForms
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.LibUnitAxes.lean ====
/-
  Two kinds of general facts about arrays read at an index given by coordinates.

  Unit axes. A vector of `a` entries viewed as a `[1, 1, a]` array, and back, and an `[a, 1, b]` array viewed as
  `[a, b]`: the row-major position of an entry does not change, so each view reads the entry with the unit
  coordinates dropped or set to zero.

  Minima over one axis. Over the extended reals a minimum taken from +infinity over one axis of a two-axis array is
  the greatest lower bound of that row or column: a number lies below it exactly when it lies below every
  entry of the row or column. Stated in that form a minimum never has to be computed or reordered.
-/
import Idealize.ShloMosaic.Lib.Pipeline.Value
import Idealize.ShloMosaic.Lib.ValueIdx
import Idealize.ShloMosaic.PureOps.Ideal.Laws
import Idealize.ShloMosaic.PureOps.Reduce

namespace Cert.Lib.UnitAxes

open Idealize.ShloMosaic Idealize.ShloMosaic.ValueIdx

variable {α : Type}

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A `[1, 1, a]` array cast to `[a]` reads, at `i`, the array at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, 1, b]` array cast to `[a, b]` reads, at `(i, j)`, the array at `(i, 0, j)`. -/
theorem shapeCast_a1b_ab_apply {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The sum over the SECOND axis of an `[n0, n1]` array at row `p` is the sum of the row's entries. -/
theorem sum_axis1 {n0 n1 : ℕ} (v : FVec Ideal (⟨2, ![n0, n1]⟩ : Shape) .f32) (acc : BitVec 32)
    (h : (⟨2, ![n0, n1]⟩ : Shape).Reduces [1] ⟨1, ![n0]⟩) (hφ : FKind.Formats .f32)
    (hacc : acc = FKind.add.neutral .f32 hφ) (p : Fin n0) :
    multiReduction .add [1] ⟨1, ![n0]⟩ v acc h hφ hacc (ix1 p) = ∑ k : Fin n1, v (ix2 p k) :=
  (Ideal.multiReduction_add_single v acc h hφ hacc (ix1 p)).trans
    (Finset.sum_congr rfl fun k _ => congrArg v (funext fun c => Fin.ext (by fin_cases c <;> rfl)))

/-- The f32 pattern of +infinity is the top of the extended reals. -/
theorem inf_f32 : Ideal.ofBits .f32 0x7F800000#32 = (⊤ : EReal) := by simp [Ideal.ofBits, Ideal.ieee]

/-- A fold of `min` from the top over a whole finite type lies above exactly the common lower bounds of the family. -/
theorem le_fold_min_top {ι : Type} [Fintype ι] (f : ι → EReal) (b : EReal) (hb : b = ⊤) (a : EReal) :
    a ≤ (Finset.univ : Finset ι).fold min b f ↔ ∀ k, a ≤ f k := by
  subst hb
  rw [Finset.le_fold_min]
  exact ⟨fun h k => h.2 k (Finset.mem_univ k), fun h => ⟨le_top, fun k _ => h k⟩⟩

/-- The minimum over the SECOND axis of an `[n0, n1]` array, taken from +infinity, at row `p`: a number lies below it
    exactly when it lies below every entry of the row. -/
theorem le_min_axis1 {n0 n1 : ℕ} (v : FVec Ideal (⟨2, ![n0, n1]⟩ : Shape) .f32) (acc : BitVec 32)
    (hinf : Ideal.ofBits .f32 acc = ⊤) (h : (⟨2, ![n0, n1]⟩ : Shape).Reduces [1] ⟨1, ![n0]⟩) (hφ : FKind.Formats .f32)
    (hacc : acc = FKind.minimumf.neutral .f32 hφ) (p : Fin n0) (a : EReal) :
    a ≤ multiReduction .minimumf [1] ⟨1, ![n0]⟩ v acc h hφ hacc (ix1 p) ↔ ∀ q : Fin n1, a ≤ v (ix2 p q) := by
  rw [multiReduction_minimumf_eq_fold, h.fold_filter_drop_single]
  have hl : ∀ k : Fin n1, h.lift (ix1 p) k = ix2 p k := fun k => funext fun c => Fin.ext (by fin_cases c <;> rfl)
  refine (le_fold_min_top (ι := Fin n1) (fun k => v (h.lift (ix1 p) k)) _ hinf a).trans ?_
  exact forall_congr' fun k => by rw [hl]

/-- The minimum over the FIRST axis of an `[n0, n1]` array, taken from +infinity, at column `q`: a number lies below it
    exactly when it lies below every entry of the column. -/
theorem le_min_axis0 {n0 n1 : ℕ} (v : FVec Ideal (⟨2, ![n0, n1]⟩ : Shape) .f32) (acc : BitVec 32)
    (hinf : Ideal.ofBits .f32 acc = ⊤) (h : (⟨2, ![n0, n1]⟩ : Shape).Reduces [0] ⟨1, ![n1]⟩) (hφ : FKind.Formats .f32)
    (hacc : acc = FKind.minimumf.neutral .f32 hφ) (q : Fin n1) (a : EReal) :
    a ≤ multiReduction .minimumf [0] ⟨1, ![n1]⟩ v acc h hφ hacc (ix1 q) ↔ ∀ p : Fin n0, a ≤ v (ix2 p q) := by
  rw [multiReduction_minimumf_eq_fold, h.fold_filter_drop_single]
  have hl : ∀ k : Fin n0, h.lift (ix1 q) k = ix2 k q := fun k => funext fun c => Fin.ext (by fin_cases c <;> rfl)
  refine (le_fold_min_top (ι := Fin n0) (fun k => v (h.lift (ix1 q) k)) _ hinf a).trans ?_
  exact forall_congr' fun k => by rw [hl]

end Cert.Lib.UnitAxes
-- ==== Proof.Payload.lean ====
/-
  What the body's three stores hold, entry by entry, over the extended reals.

  The body works on one tile: a `[1, 128, 128]` block `x` of the data (128 instances by 128 features), the `[1, 64]` row `s`
  of sample points, and the `[128, 64]` accumulator (feature by bin).
  • The reset stores zero everywhere.
  • The accumulation lays `s` and `x` over a `[128, 128, 64]` cube (instance, feature, bin), takes
    `u · exp ((c · (s k − x (r, p))) · (s k − x (r, p)))` there, sums the cube over the instances and adds the result to the
    accumulator: at `(p, k)` it stores the accumulator's entry plus the sum over the tile's 128 instances `r` of the weight
    the point `s k` gets from the datum `x (r, p)` (the scale moves inside the square by associativity of the product).
  • The normalisation sums the accumulator over the bins, keeps the sum as a column, lays it back along the bins and
    divides: at `(p, k)` it stores the accumulator's entry over the sum of the accumulator's row `p`.
-/
import proofs.«130075_j72069551227094_1_alg».proof.Proof.Gen.KernelIdeal.Skeleton
import proofs.«130075_j72069551227094_1_alg».proof.Proof.Spec
import proofs.«130075_j72069551227094_1_alg».proof.Proof.LibCubeForms
import proofs.«130075_j72069551227094_1_alg».proof.Proof.LibKeepdims
import proofs.«130075_j72069551227094_1_alg».proof.Proof.LibUnitAxes
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.SoftHistogram.Body

open Idealize.ShloMosaic Idealize.ShloMosaic.ValueIdx
open Cert.KernelIdeal Cert.KernelIdeal.Gen Cert.SoftHistogram
open Cert.Lib.CubeForms Cert.Lib.UnitAxes Cert.Rbf.Keepdims

/-- The reset's payload is zero at every entry. -/
theorem reset_apply (j : S128x64.Idx) : k0_pay1 (F := Ideal) j = 0 := by
  unfold k0_pay1
  rw [shapeCast_self]
  exact Ideal.ofBits_zero_f32

/-- The sample points laid over the cube read, at (instance, feature, bin) = `(r, p, k)`, the row's entry `k`. -/
theorem points_cube_apply (x1 : Vec Ideal S1x64 .f32) (r p : Fin 128) (k : Fin 64) :
    broadcastTo S128x128x64 (shapeCast S1x1x64 (shapeCast S64 x1 shapeCasts_S1x64_S64) shapeCasts_S64_S1x1x64)
        broadcasts_S1x1x64_S128x128x64 (ix3 r p k)
      = x1 (ix2 (0 : Fin 1) k) :=
  (broadcastTo_11c_abc_apply _ _ r p k).trans
    ((shapeCast_a_11a_apply _ _ 0 0 k).trans (shapeCast_1a_a_apply _ _ k))

/-- The data tile laid over the cube reads, at `(r, p, k)`, the tile's entry (instance `r`, feature `p`). -/
theorem data_cube_apply (x0 : Vec Ideal S1x128x128 .f32) (r p : Fin 128) (k : Fin 64) :
    broadcastTo S128x128x64 (shapeCast S128x128x1 (shapeCast S128x128 x0 shapeCasts_S1x128x128_S128x128) shapeCasts_S128x128_S128x128x1)
        broadcasts_S128x128x1_S128x128x64 (ix3 r p k)
      = x0 (ix3 (0 : Fin 1) r p) :=
  (broadcastTo_ab1_abc_apply _ _ r p k).trans
    ((shapeCast_ab_ab1_apply _ _ r p 0).trans (shapeCast_1ab_ab_apply _ _ r p))

/-- The accumulation's payload at (feature, bin) = `(p, k)`: the accumulator's entry plus the tile's 128 weights. -/
theorem accumulate_apply (x0 : Vec Ideal S1x128x128 .f32) (x1 : Vec Ideal S1x64 .f32) (acc : Vec Ideal S128x64 .f32)
    (p : Fin 128) (k : Fin 64) :
    k0_pay2 x0 x1 acc (ix2 p k)
      = acc (ix2 p k) + ∑ r : Fin 128, kern (x1 (ix2 (0 : Fin 1) k)) (x0 (ix3 (0 : Fin 1) r p)) := by
  unfold k0_pay2
  dsimp only
  rw [shapeCast_self, addf_apply]
  refine congrArg (acc (ix2 p k) + ·) ?_
  refine (sum_axis0_rank3 _ _ _ _ _ p k).trans (Finset.sum_congr rfl fun r _ => ?_)
  rw [← kern_assoc, mulf_apply, broadcast_apply]
  refine congrArg (unitFactor * ·) ?_
  refine congrArg Ideal.exp ?_
  rw [mulf_apply, mulf_apply, broadcast_apply, subf_apply, points_cube_apply, data_cube_apply]
  rfl

/-- The normalisation's payload at `(0, p, k)`: the second accumulator's entry over the first accumulator's row sum. -/
theorem normalize_apply (a a' : Vec Ideal S128x64 .f32) (u : Fin 1) (p : Fin 128) (k : Fin 64) :
    k0_pay3 a a' (ix3 u p k) = Ideal.div (a' (ix2 p k)) (∑ k' : Fin 64, a (ix2 p k')) := by
  unfold k0_pay3
  dsimp only
  refine (shapeCast_ab_1ab_apply _ _ u p k).trans ?_
  rw [divf_apply]
  refine congrArg (Ideal.div (a' (ix2 p k))) ?_
  exact (broadcastTo_a1_ab_apply _ _ p k).trans ((shapeCast_a_a1_apply _ _ p 0).trans (sum_axis1 _ _ _ _ _ p))

/-- One tile's accumulation in the histogram's terms: when the data block's entry `(r, p)` is the datum of batch `b`,
    instance `128 · j + r`, feature `128 · h + p`, and the row's entry `k` is sample point `k`, the accumulation adds, at
    `(p, k)`, tile `j`'s part of the mass of bin `k` at that feature. -/
theorem accumulate_tile (x0 : Vec Ideal S1x128x128 .f32) (x1 : Vec Ideal S1x64 .f32) (acc : Vec Ideal S128x64 .f32)
    (x : Data) (s : Points) (b : Fin 8) (h : Fin 2) (j : Fin 4) (p : Fin 128) (k : Fin 64)
    (hx : ∀ r : Fin 128, x0 (ix3 (0 : Fin 1) r p) = x (ix3 b (inst j r) (feat h p)))
    (hs : x1 (ix2 (0 : Fin 1) k) = s (ix1 k)) :
    k0_pay2 x0 x1 acc (ix2 p k) = acc (ix2 p k) + tileMass x s b (feat h p) k j := by
  rw [accumulate_apply, hs]
  unfold tileMass weight
  exact congrArg (acc (ix2 p k) + ·) (Finset.sum_congr rfl fun r _ => by rw [hx r])

/-- The normalisation in the histogram's terms: of an accumulator whose row `p` holds the masses of the bins of feature
    `f` in batch `b`, it stores at `(p, k)` the histogram's entry `(b, f, k)`. -/
theorem normalize_hist (a : Vec Ideal S128x64 .f32) (x : Data) (s : Points) (b : Fin 8) (f : Fin 256)
    (u : Fin 1) (p : Fin 128) (k : Fin 64) (ha : ∀ k' : Fin 64, a (ix2 p k') = mass x s b f k') :
    k0_pay3 a a (ix3 u p k) = hist x s (ix3 b f k) := by
  rw [normalize_apply, ha k]
  unfold hist total
  exact congrArg (Ideal.div (mass x s b f k)) (Finset.sum_congr rfl fun k' _ => ha k')

end Cert.SoftHistogram.Body

end
-- ==== Proof.Accumulated.lean ====
/-
  What the accumulator and the output block hold after each point.

  After the point of batch `b`, feature half `h` and tile `j` the accumulator's entry `(p, k)` is the mass bin `k` of
  feature `128 · h + p` has gathered from the tiles `0 … j` of batch `b`: the first tile of a run resets the accumulator
  and adds its part, every later tile adds its part to what the tile before left — the point before it, which has the
  same batch and half and the tile before. By induction on the point, never by enumerating the grid.
  At a run's last tile the gathered mass is the whole mass, and the output block, which the body fills there with the
  normalisation of that accumulator, holds at `(0, p, k)` the histogram's entry (batch `b`, feature `128 · h + p`, bin `k`).
-/
import proofs.«130075_j72069551227094_1_alg».proof.Proof.Blocks
import proofs.«130075_j72069551227094_1_alg».proof.Proof.Pieces
import proofs.«130075_j72069551227094_1_alg».proof.Proof.Payload

noncomputable section

namespace Cert.SoftHistogram.Kernel

open Idealize.ShloMosaic Idealize.ShloMosaic.TcCoe Idealize.SL.Sem Idealize.ShloMosaic.ValueIdx
open Cert.KernelIdeal Cert.KernelIdeal.Gen Cert.SoftHistogram Cert.SoftHistogram.Body Cert.SoftHistogram.Cases

variable (m : (ℓ : Loc nD τ sig) → Buf (Elt Ideal) ℓ)

/-- What a run's first point leaves in the accumulator: the tile's accumulation over the zero block. -/
theorem acc_at_first (c : Dev nD) (t : Fin cfg0.N) (h0 : t.val % 4 = 0) (h1 : ¬t.val % 4 = 3) :
    (outsAt0 m c t.val t.isLt).2 = k0_pay2 (iblk m c 0 t) (iblk m c 1 t) (k0_pay1 (F := Ideal)) :=
  (congrArg Prod.snd (outsAt0_A m c t h0 h1)).trans
    (acc_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))

/-- What a middle point leaves in it: the tile's accumulation over what the point before left. -/
theorem acc_at_middle (c : Dev nD) (t : Fin cfg0.N) (h0 : ¬t.val % 4 = 0) (h1 : ¬t.val % 4 = 3) :
    (outsAt0 m c t.val t.isLt).2
      = k0_pay2 (iblk m c 0 t) (iblk m c 1 t) (outsAt0 m c (t.val - 1) (Nat.lt_of_le_of_lt (Nat.sub_le _ _) t.isLt)).2 :=
  (congrArg Prod.snd (outsAt0_B m c t h0 h1)).trans
    (acc_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2)

/-- What a run's last point leaves in it: the same. -/
theorem acc_at_last (c : Dev nD) (t : Fin cfg0.N) (h0 : ¬t.val % 4 = 0) (h1 : t.val % 4 = 3) :
    (outsAt0 m c t.val t.isLt).2
      = k0_pay2 (iblk m c 0 t) (iblk m c 1 t) (outsAt0 m c (t.val - 1) (Nat.lt_of_le_of_lt (Nat.sub_le _ _) t.isLt)).2 :=
  (congrArg Prod.snd (outsAt0_C m c t h0 h1)).trans
    (acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)

/-- And what it leaves in the output block: the normalisation of the accumulator it leaves. -/
theorem out_at_last (c : Dev nD) (t : Fin cfg0.N) (h0 : ¬t.val % 4 = 0) (h1 : t.val % 4 = 3) :
    (outsAt0 m c t.val t.isLt).1 = k0_pay3 (outsAt0 m c t.val t.isLt).2 (outsAt0 m c t.val t.isLt).2 := by
  rw [acc_at_last m c t h0 h1]
  exact (congrArg Prod.fst (outsAt0_C m c t h0 h1)).trans
    (out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)

/-- A point's accumulation at `(p, k)`, over an accumulator `acc`: `acc`'s entry plus the part of the point's tile. -/
theorem step_at (c : Dev nD) (t : Fin cfg0.N) (acc : Vec Ideal S128x64 .f32) (p : Fin 128) (k : Fin 64) :
    k0_pay2 (iblk m c 0 t) (iblk m c 1 t) acc (ix2 p k)
      = acc (ix2 p k) + tileMass (dataOf m c) (pointsOf m c) (batchOf t) (feat (halfOf t) p) k (tileOf t) :=
  accumulate_tile (iblk m c 0 t) (iblk m c 1 t) acc (dataOf m c) (pointsOf m c) (batchOf t) (halfOf t) (tileOf t) p k
    (fun r => data_block m c t r p) (points_block m c t k)

/-- THE ACCUMULATOR after point `n`: at `(p, k)` the mass gathered from the tiles up to the point's, for the point's batch and
    the feature `p` of the point's half. -/
theorem acc_eq (c : Dev nD) : ∀ (n : ℕ) (h : n < cfg0.N) (p : Fin 128) (k : Fin 64),
    (outsAt0 m c n h).2 (ix2 p k)
      = massUpTo (dataOf m c) (pointsOf m c) (batchOf ⟨n, h⟩) (feat (halfOf ⟨n, h⟩) p) k (tileOf ⟨n, h⟩) := by
  intro n
  induction n with
  | zero =>
    intro h p k
    have ht : tileOf ⟨0, h⟩ = 0 := Fin.ext rfl
    refine (congrFun (acc_at_first m c ⟨0, h⟩ rfl (by show ¬(0 % 4 = 3); decide)) (ix2 p k)).trans ?_
    rw [step_at, reset_apply, zero_add, ht, massUpTo_zero]
  | succ n ih =>
    intro h p k
    have hN : n + 1 < 64 := point_lt ⟨n + 1, h⟩
    have hn : n < cfg0.N := Nat.lt_of_succ_lt h
    by_cases h0 : (n + 1) % 4 = 0
    · have h1 : ¬(n + 1) % 4 = 3 := by omega
      have ht : tileOf ⟨n + 1, h⟩ = 0 := Fin.ext h0
      refine (congrFun (acc_at_first m c ⟨n + 1, h⟩ h0 h1) (ix2 p k)).trans ?_
      rw [step_at, reset_apply, zero_add, ht, massUpTo_zero]
    · have hb : batchOf ⟨n, hn⟩ = batchOf ⟨n + 1, h⟩ := Fin.ext (by show n / 8 = (n + 1) / 8; omega)
      have hh : halfOf ⟨n, hn⟩ = halfOf ⟨n + 1, h⟩ := Fin.ext (by show n / 4 % 2 = (n + 1) / 4 % 2; omega)
      have hj : (tileOf ⟨n + 1, h⟩).val = (tileOf ⟨n, hn⟩).val + 1 := by show (n + 1) % 4 = n % 4 + 1; omega
      have hprev : (outsAt0 m c ((⟨n + 1, h⟩ : Fin cfg0.N).val - 1) (Nat.lt_of_le_of_lt (Nat.sub_le _ _) h)).2 (ix2 p k)
          = massUpTo (dataOf m c) (pointsOf m c) (batchOf ⟨n + 1, h⟩) (feat (halfOf ⟨n + 1, h⟩) p) k (tileOf ⟨n, hn⟩) := by
        show (outsAt0 m c n _).2 (ix2 p k) = _
        rw [ih hn p k, hb, hh]
      by_cases h1 : (n + 1) % 4 = 3
      · refine (congrFun (acc_at_last m c ⟨n + 1, h⟩ h0 h1) (ix2 p k)).trans ?_
        rw [step_at, hprev, ← massUpTo_succ _ _ _ _ _ _ _ hj]
      · refine (congrFun (acc_at_middle m c ⟨n + 1, h⟩ h0 h1) (ix2 p k)).trans ?_
        rw [step_at, hprev, ← massUpTo_succ _ _ _ _ _ _ _ hj]

/-- THE OUTPUT BLOCK after a run's last point: at `(0, p, k)` the histogram's entry (the point's batch, feature `p` of the
    point's half, bin `k`). -/
theorem out_eq (c : Dev nD) (t : Fin cfg0.N) (h3 : t.val % 4 = 3) (u : Fin 1) (p : Fin 128) (k : Fin 64) :
    (outsAt0 m c t.val t.isLt).1 (ix3 u p k)
      = hist (dataOf m c) (pointsOf m c) (ix3 (batchOf t) (feat (halfOf t) p) k) := by
  have h0 : ¬t.val % 4 = 0 := by omega
  have ht : tileOf t = 3 := Fin.ext h3
  refine (congrFun (out_at_last m c t h0 h3) (ix3 u p k)).trans ?_
  refine normalize_hist _ (dataOf m c) (pointsOf m c) (batchOf t) (feat (halfOf t) p) u p k fun k' => ?_
  refine (acc_eq m c t.val t.isLt p k').trans ?_
  show massUpTo _ _ (batchOf t) (feat (halfOf t) p) k' (tileOf t) = _
  rw [ht, massUpTo_last]

end Cert.SoftHistogram.Kernel

end
-- ==== Proof.HistArray.lean ====
/-
  The result array after the run is the soft histogram of the launched arguments.

  The output window's block is written back at the last tile of each run of four, the points ≡ 3 (mod 4). There the block
  `[1, 128, 64]` holds the histogram's entries of the point's batch and feature half (the accumulated values): it is the
  histogram read through the block's rectangle. Every index (b, f, k) of the result lies in the block written back at the
  last tile of batch `b` and half `f / 128`, the point `8 · b + 4 · (f / 128) + 3`; so the array ends at the histogram.
-/
import proofs.«130075_j72069551227094_1_alg».proof.Proof.Accumulated

noncomputable section

namespace Cert.SoftHistogram.Kernel

open Idealize.ShloMosaic Idealize.ShloMosaic.TcCoe Idealize.SL.Sem Idealize.ShloMosaic.ValueIdx
open Idealize.ShloMosaic.Pipeline (Dat)
open Cert.KernelIdeal Cert.KernelIdeal.Gen Cert.SoftHistogram

variable (m : (ℓ : Loc nD τ sig) → Buf (Elt Ideal) ℓ) (ρ : Dev nD → PrngReg)

/-- What a write-back writes is the histogram read through the point's block. -/
theorem written_back (c : Dev nD) (t : Fin cfg0.N) (hf : (cfg0.win 2).flush t = true) :
    (dats m 0 c).flushed 2 t = ((cfg0.win 2).blk t).view.read (Elt Ideal) (hist (dataOf m c) (pointsOf m c)) := by
  have h3 : t.val % 4 = 3 := (flush0_2 t).mp hf
  obtain ⟨-, -, -, -, -, e5, e6, e7⟩ := block_indices t
  rw [Cert.KernelIdeal.Value.flushed2]
  funext y
  obtain ⟨u, p, k, rfl⟩ : ∃ (u : Fin 1) (p : Fin 128) (k : Fin 64), y = ix3 u p k := ⟨y 0, y 1, y 2, eq_ix3 y⟩
  rw [View.read_apply]
  show (outsAt0 m c t.val t.isLt).1 (ix3 u p k) = _
  rw [out_eq m c t h3]
  refine congrArg (hist (dataOf m c) (pointsOf m c)) (funext fun a => Fin.ext ?_)
  match a with
  | ⟨0, _⟩ => show t.val / 8 = win0_2.index t (0 : Fin 3) * 1 + 1 * u.val; have := u.isLt; omega
  | ⟨1, _⟩ => show 128 * (t.val / 4 % 2) + p.val = win0_2.index t (1 : Fin 3) * 128 + 1 * p.val; omega
  | ⟨2, _⟩ => show k.val = win0_2.index t (2 : Fin 3) * 64 + 1 * k.val; omega

/-- Every index of the result lies in a block that is written back. -/
theorem covered (i : S8x256x64.Idx) :
    ∃ t : Fin cfg0.N, (cfg0.win 2).flush t = true ∧ i ∈ ((cfg0.win 2).blk t).view.set := by
  have hb : (i 0).val < 8 := (i 0).isLt
  have hf : (i 1).val < 256 := (i 1).isLt
  have hk : (i 2).val < 64 := (i 2).isLt
  obtain ⟨t, htv⟩ : ∃ t : Fin cfg0.N, t.val = 8 * (i 0).val + 4 * ((i 1).val / 128) + 3 :=
    ⟨⟨8 * (i 0).val + 4 * ((i 1).val / 128) + 3, by rw [show cfg0.N = 64 from N_0]; omega⟩, rfl⟩
  obtain ⟨-, -, -, -, -, e5, e6, e7⟩ := block_indices t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 64 ≤ (i 2).val ∧ (i 2).val < win0_2.index t (2 : Fin 3) * 64 + 64
    omega

/-- The result array after the run. -/
theorem result_array (c : Dev nD) : (dats m 0 c).arrAt 2 cfg0.N = hist (dataOf m c) (pointsOf m c) :=
  (dats m 0 c).arrAt_eq_of_cover 2 (hist (dataOf m c) (pointsOf m c)) (written_back m c) covered

/-- The kernel's run: every weakly fair execution terminates with the result at the histogram of the launched data and
    sample points, the arguments unchanged. -/
theorem run : θ_run defs (onTc (τ := τ) (main (F := Ideal))) ⟨m, fun _ => 0, ρ⟩ fun r => ∀ c : Dev nD,
      r.2.mem ((c : Thread nD τ).loc main_v1) = hist (dataOf m c) (pointsOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Cert.KernelIdeal.Value.run_blocks m ρ)

end Cert.SoftHistogram.Kernel

end
-- ==== Proof.lean ====
/-
  The soft-histogram kernel against its reference, over the extended reals.

  Both programs compute, for every batch, feature and bin, the bin's mass — the sum over the 512 instances of
  `u · exp (c · (s − x)²)` of the bin's sample point `s` and the instance's datum `x` — divided by the sum of the feature's 64
  masses. The reference sums the 512 instances at once. The kernel walks a grid of 8 batches × 2 feature halves × 4
  instance tiles: it resets an accumulator at a run's first tile, adds each tile's 128 weights to it, and at the last tile
  divides each entry by its row's sum and writes the block back. The two agree because addition of extended reals is
  associative and commutative (the four tiles' partial sums add up to the sum over the 512 instances; the zeros the sums
  start from drop) and multiplication is associative (the kernel multiplies the scale into `s − x` before squaring). No
  finiteness is used: the precondition is never opened.

  The kernel's result array is read off its generated frame run (the accumulator by induction on the grid point), the
  reference's off its generated run, stage by stage; both are `Cert.SoftHistogram.hist` of the arguments.
-/
import proofs.«130075_j72069551227094_1_alg».proof.Defs
import proofs.«130075_j72069551227094_1_alg».proof.Proof.Gen.Kernel
import proofs.«130075_j72069551227094_1_alg».proof.Proof.Gen.Kernel.Frame
import proofs.«130075_j72069551227094_1_alg».proof.Proof.Gen.KernelIdeal
import proofs.«130075_j72069551227094_1_alg».proof.Proof.Gen.KernelIdeal.Frame
import proofs.«130075_j72069551227094_1_alg».proof.Proof.Gen.KernelIdeal.Value
import proofs.«130075_j72069551227094_1_alg».proof.Proof.Gen.ReferenceIdeal
import proofs.«130075_j72069551227094_1_alg».proof.Proof.Gen.ReferenceIdeal.Run
import proofs.«130075_j72069551227094_1_alg».proof.Proof.Gen.ReferenceIdeal.Read
import proofs.«130075_j72069551227094_1_alg».proof.Proof.Gen.Pre_finite_inputs
import proofs.«130075_j72069551227094_1_alg».proof.Proof.Spec
import proofs.«130075_j72069551227094_1_alg».proof.Proof.RefHist
import proofs.«130075_j72069551227094_1_alg».proof.Proof.HistArray
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree both programs end with the soft histogram of those arguments. -/
theorem algebraic : Cert.algebraic_KernelIdeal_ReferenceIdeal := by
  intro m ρ m' ρ' _ hagree
  refine ⟨fun c => Cert.SoftHistogram.hist (Cert.SoftHistogram.Kernel.dataOf m c) (Cert.SoftHistogram.Kernel.pointsOf m c),
    Cert.SoftHistogram.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.SoftHistogram.Reference.result_eq_hist, (hagree c).1,
    (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
